-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S_ : Shape := ⟨0, ![]⟩

class Facts : Prop where
  bcast_S_S10000x1x64 : S_.BroadcastsInDim S10000x1x64 (![] : Fin 0 → Fin S10000x1x64.rank)
  reducesTo_S10000x1x64_S_d0_1_2 : S10000x1x64.ReducesTo [0, 1, 2] S_
  h_S_ : 0 < S_.numel
  bcast_S_S10000x3x64 : S_.BroadcastsInDim S10000x3x64 (![] : Fin 0 → Fin S10000x3x64.rank)
  reducesTo_S10000x3x64_S_d0_1_2 : S10000x3x64.ReducesTo [0, 1, 2] S_
  bcast_S_S10000x5x64 : S_.BroadcastsInDim S10000x5x64 (![] : Fin 0 → Fin S10000x5x64.rank)
  reducesTo_S10000x5x64_S_d0_1_2 : S10000x5x64.ReducesTo [0, 1, 2] S_
  bcast_S_S10000x7x64 : S_.BroadcastsInDim S10000x7x64 (![] : Fin 0 → Fin S10000x7x64.rank)
  reducesTo_S10000x7x64_S_d0_1_2 : S10000x7x64.ReducesTo [0, 1, 2] S_
  bcast_S_S10000x9x64 : S_.BroadcastsInDim S10000x9x64 (![] : Fin 0 → Fin S10000x9x64.rank)
  reducesTo_S10000x9x64_S_d0_1_2 : S10000x9x64.ReducesTo [0, 1, 2] S_
  bcast_S_S10000x11x64 : S_.BroadcastsInDim S10000x11x64 (![] : Fin 0 → Fin S10000x11x64.rank)
  reducesTo_S10000x11x64_S_d0_1_2 : S10000x11x64.ReducesTo [0, 1, 2] S_

variable [Facts]

def fn_part1 {F : FTy → Type} [FloatOps F] (main_arg4 : FVec F S10000x9x64 .f32) (main_arg5 : FVec F S10000x11x64 .f32) (main_v13 : IVec S_ 1) (main_v16 : IVec S10000x7x64 1) : IVec S_ 1 :=
  let main_c_5 : IVec S_ 1 := constantI S_ 1 1#1
  let main_v17 : IVec S_ 1 := (fun x v => Host.reduce IntOp.andi x v reducesTo_S10000x7x64_S_d0_1_2 h_S_) main_v16 main_c_5
  let main_v18 : IVec S_ 1 := andi main_v13 main_v17
  let main_v19 : FVec F S10000x9x64 .f32 := Host.absf main_arg4
  let main_cst_6 : FVec F S_ .f32 := constant S_ .f32 0x7F800000#32
  let main_v20 : FVec F S10000x9x64 .f32 := broadcastInDim S10000x9x64 ![] bcast_S_S10000x9x64 main_cst_6
  let main_v21 : IVec S10000x9x64 1 := cmpf .olt main_v19 main_v20
  let main_c_7 : IVec S_ 1 := constantI S_ 1 1#1
  let main_v22 : IVec S_ 1 := (fun x v => Host.reduce IntOp.andi x v reducesTo_S10000x9x64_S_d0_1_2 h_S_) main_v21 main_c_7
  let main_v23 : IVec S_ 1 := andi main_v18 main_v22
  let main_v24 : FVec F S10000x11x64 .f32 := Host.absf main_arg5
  let main_cst_8 : FVec F S_ .f32 := constant S_ .f32 0x7F800000#32
  let main_v25 : FVec F S10000x11x64 .f32 := broadcastInDim S10000x11x64 ![] bcast_S_S10000x11x64 main_cst_8
  let main_v26 : IVec S10000x11x64 1 := cmpf .olt main_v24 main_v25
  let main_c_9 : IVec S_ 1 := constantI S_ 1 1#1
  let main_v27 : IVec S_ 1 := (fun x v => Host.reduce IntOp.andi x v reducesTo_S10000x11x64_S_d0_1_2 h_S_) main_v26 main_c_9
  let main_v28 : IVec S_ 1 := andi main_v23 main_v27
  main_v28

def fn {F : FTy → Type} [FloatOps F] (main_arg0 : FVec F S10000x1x64 .f32) (main_arg1 : FVec F S10000x3x64 .f32) (main_arg2 : FVec F S10000x5x64 .f32) (main_arg3 : FVec F S10000x7x64 .f32) (main_arg4 : FVec F S10000x9x64 .f32) (main_arg5 : FVec F S10000x11x64 .f32) : IVec S_ 1 :=
  let main_v0 : FVec F S10000x1x64 .f32 := Host.absf main_arg0
  let main_cst : FVec F S_ .f32 := constant S_ .f32 0x7F800000#32
  let main_v1 : FVec F S10000x1x64 .f32 := broadcastInDim S10000x1x64 ![] bcast_S_S10000x1x64 main_cst
  let main_v2 : IVec S10000x1x64 1 := cmpf .olt main_v0 main_v1
  let main_c : IVec S_ 1 := constantI S_ 1 1#1
  let main_v3 : IVec S_ 1 := (fun x v => Host.reduce IntOp.andi x v reducesTo_S10000x1x64_S_d0_1_2 h_S_) main_v2 main_c
  let main_v4 : FVec F S10000x3x64 .f32 := Host.absf main_arg1
  let main_cst_0 : FVec F S_ .f32 := constant S_ .f32 0x7F800000#32
  let main_v5 : FVec F S10000x3x64 .f32 := broadcastInDim S10000x3x64 ![] bcast_S_S10000x3x64 main_cst_0
  let main_v6 : IVec S10000x3x64 1 := cmpf .olt main_v4 main_v5
  let main_c_1 : IVec S_ 1 := constantI S_ 1 1#1
  let main_v7 : IVec S_ 1 := (fun x v => Host.reduce IntOp.andi x v reducesTo_S10000x3x64_S_d0_1_2 h_S_) main_v6 main_c_1
  let main_v8 : IVec S_ 1 := andi main_v3 main_v7
  let main_v9 : FVec F S10000x5x64 .f32 := Host.absf main_arg2
  let main_cst_2 : FVec F S_ .f32 := constant S_ .f32 0x7F800000#32
  let main_v10 : FVec F S10000x5x64 .f32 := broadcastInDim S10000x5x64 ![] bcast_S_S10000x5x64 main_cst_2
  let main_v11 : IVec S10000x5x64 1 := cmpf .olt main_v9 main_v10
  let main_c_3 : IVec S_ 1 := constantI S_ 1 1#1
  let main_v12 : IVec S_ 1 := (fun x v => Host.reduce IntOp.andi x v reducesTo_S10000x5x64_S_d0_1_2 h_S_) main_v11 main_c_3
  let main_v13 : IVec S_ 1 := andi main_v8 main_v12
  let main_v14 : FVec F S10000x7x64 .f32 := Host.absf main_arg3
  let main_cst_4 : FVec F S_ .f32 := constant S_ .f32 0x7F800000#32
  let main_v15 : FVec F S10000x7x64 .f32 := broadcastInDim S10000x7x64 ![] bcast_S_S10000x7x64 main_cst_4
  let main_v16 : IVec S10000x7x64 1 := cmpf .olt main_v14 main_v15
  fn_part1 (F := F) main_arg4 main_arg5 main_v13 main_v16
-- ==== Kernel.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S10000x24576 : Shape := ⟨2, ![10000, 24576]⟩
abbrev S80x1x64 : Shape := ⟨3, ![80, 1, 64]⟩
abbrev S80x3x64 : Shape := ⟨3, ![80, 3, 64]⟩
abbrev S80x5x64 : Shape := ⟨3, ![80, 5, 64]⟩
abbrev S80x7x64 : Shape := ⟨3, ![80, 7, 64]⟩
abbrev S80x9x64 : Shape := ⟨3, ![80, 9, 64]⟩
abbrev S80x11x64 : Shape := ⟨3, ![80, 11, 64]⟩
abbrev S80x24576 : Shape := ⟨2, ![80, 24576]⟩
abbrev S80x64x64 : Shape := ⟨3, ![80, 64, 64]⟩
abbrev S80x64 : Shape := ⟨2, ![80, 64]⟩
abbrev S80x64x1 : Shape := ⟨3, ![80, 64, 1]⟩
abbrev S80x4096 : Shape := ⟨2, ![80, 4096]⟩

abbrev nBuf : Space → Nat
  | .hbm => 7
  | .vmem => 14
  | .smem => 0
  | _ => 0

abbrev bufTy : (tb : Table) → Fin (tcTables nBuf tb) → BufTy
  | .hbm, ⟨0, _⟩ => ⟨S10000x1x64, .f32⟩
  | .hbm, ⟨1, _⟩ => ⟨S10000x3x64, .f32⟩
  | .hbm, ⟨2, _⟩ => ⟨S10000x5x64, .f32⟩
  | .hbm, ⟨3, _⟩ => ⟨S10000x7x64, .f32⟩
  | .hbm, ⟨4, _⟩ => ⟨S10000x9x64, .f32⟩
  | .hbm, ⟨5, _⟩ => ⟨S10000x11x64, .f32⟩
  | .hbm, ⟨6, _⟩ => ⟨S10000x24576, .f32⟩
  | .local _ .vmem, ⟨0, _⟩ => ⟨S80x1x64, .f32⟩
  | .local _ .vmem, ⟨1, _⟩ => ⟨S80x1x64, .f32⟩
  | .local _ .vmem, ⟨2, _⟩ => ⟨S80x3x64, .f32⟩
  | .local _ .vmem, ⟨3, _⟩ => ⟨S80x3x64, .f32⟩
  | .local _ .vmem, ⟨4, _⟩ => ⟨S80x5x64, .f32⟩
  | .local _ .vmem, ⟨5, _⟩ => ⟨S80x5x64, .f32⟩
  | .local _ .vmem, ⟨6, _⟩ => ⟨S80x7x64, .f32⟩
  | .local _ .vmem, ⟨7, _⟩ => ⟨S80x7x64, .f32⟩
  | .local _ .vmem, ⟨8, _⟩ => ⟨S80x9x64, .f32⟩
  | .local _ .vmem, ⟨9, _⟩ => ⟨S80x9x64, .f32⟩
  | .local _ .vmem, ⟨10, _⟩ => ⟨S80x11x64, .f32⟩
  | .local _ .vmem, ⟨11, _⟩ => ⟨S80x11x64, .f32⟩
  | .local _ .vmem, ⟨12, _⟩ => ⟨S80x24576, .f32⟩
  | .local _ .vmem, ⟨13, _⟩ => ⟨S80x24576, .f32⟩
  | _, _ => ⟨S10000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S80x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x5x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x7x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x9x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x11x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S80x24576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S80x1x64_S80x1x64_0_0_0 : ∀ a, (![0, 0, 0] : Fin 3 → Nat) a + S80x1x64.size a ≤ S80x1x64.size a
  h_S80x1x64 : 0 < S80x1x64.numel
  shapeCasts_S80x1x64_S80x64 : S80x1x64.ShapeCasts S80x64
  shapeCasts_S80x64_S80x64x1 : S80x64.ShapeCasts S80x64x1
  shapeCasts_S80x64_S80x1x64 : S80x64.ShapeCasts S80x1x64
  broadcasts_S80x64x1_S80x64x64 : S80x64x1.Broadcasts S80x64x64
  broadcasts_S80x1x64_S80x64x64 : S80x1x64.Broadcasts S80x64x64
  shapeCasts_S80x64x64_S80x4096 : S80x64x64.ShapeCasts S80x4096
  inb_S80x24576_S80x4096_0_0 : ∀ a, (![0, 0] : Fin 2 → Nat) a + S80x4096.size a ≤ S80x24576.size a
  h_S80x4096 : 0 < S80x4096.numel
  inb_S80x3x64_S80x3x64_0_0_0 : ∀ a, (![0, 0, 0] : Fin 3 → Nat) a + S80x3x64.size a ≤ S80x3x64.size a
  h_S80x3x64 : 0 < S80x3x64.numel
  slices_S80x3x64_o0_0_0_S80x1x64 : S80x3x64.Slices ![0, 0, 0] S80x1x64
  slices_S80x3x64_o0_1_0_S80x1x64 : S80x3x64.Slices ![0, 1, 0] S80x1x64
  slices_S80x3x64_o0_2_0_S80x1x64 : S80x3x64.Slices ![0, 2, 0] S80x1x64
  inb_S80x24576_S80x4096_0_4096 : ∀ a, (![0, 4096] : Fin 2 → Nat) a + S80x4096.size a ≤ S80x24576.size a
  inb_S80x5x64_S80x5x64_0_0_0 : ∀ a, (![0, 0, 0] : Fin 3 → Nat) a + S80x5x64.size a ≤ S80x5x64.size a
  h_S80x5x64 : 0 < S80x5x64.numel
  slices_S80x5x64_o0_0_0_S80x1x64 : S80x5x64.Slices ![0, 0, 0] S80x1x64
  slices_S80x5x64_o0_1_0_S80x1x64 : S80x5x64.Slices ![0, 1, 0] S80x1x64
  slices_S80x5x64_o0_2_0_S80x1x64 : S80x5x64.Slices ![0, 2, 0] S80x1x64
  slices_S80x5x64_o0_3_0_S80x1x64 : S80x5x64.Slices ![0, 3, 0] S80x1x64
  slices_S80x5x64_o0_4_0_S80x1x64 : S80x5x64.Slices ![0, 4, 0] S80x1x64
  inb_S80x24576_S80x4096_0_8192 : ∀ a, (![0, 8192] : Fin 2 → Nat) a + S80x4096.size a ≤ S80x24576.size a
  inb_S80x7x64_S80x7x64_0_0_0 : ∀ a, (![0, 0, 0] : Fin 3 → Nat) a + S80x7x64.size a ≤ S80x7x64.size a
  h_S80x7x64 : 0 < S80x7x64.numel
  slices_S80x7x64_o0_0_0_S80x1x64 : S80x7x64.Slices ![0, 0, 0] S80x1x64
  slices_S80x7x64_o0_1_0_S80x1x64 : S80x7x64.Slices ![0, 1, 0] S80x1x64
  slices_S80x7x64_o0_2_0_S80x1x64 : S80x7x64.Slices ![0, 2, 0] S80x1x64
  slices_S80x7x64_o0_3_0_S80x1x64 : S80x7x64.Slices ![0, 3, 0] S80x1x64
  slices_S80x7x64_o0_4_0_S80x1x64 : S80x7x64.Slices ![0, 4, 0] S80x1x64
  slices_S80x7x64_o0_5_0_S80x1x64 : S80x7x64.Slices ![0, 5, 0] S80x1x64
  slices_S80x7x64_o0_6_0_S80x1x64 : S80x7x64.Slices ![0, 6, 0] S80x1x64
  inb_S80x24576_S80x4096_0_12288 : ∀ a, (![0, 12288] : Fin 2 → Nat) a + S80x4096.size a ≤ S80x24576.size a
  inb_S80x9x64_S80x9x64_0_0_0 : ∀ a, (![0, 0, 0] : Fin 3 → Nat) a + S80x9x64.size a ≤ S80x9x64.size a
  h_S80x9x64 : 0 < S80x9x64.numel
  slices_S80x9x64_o0_0_0_S80x1x64 : S80x9x64.Slices ![0, 0, 0] S80x1x64
  slices_S80x9x64_o0_1_0_S80x1x64 : S80x9x64.Slices ![0, 1, 0] S80x1x64
  slices_S80x9x64_o0_2_0_S80x1x64 : S80x9x64.Slices ![0, 2, 0] S80x1x64
  slices_S80x9x64_o0_3_0_S80x1x64 : S80x9x64.Slices ![0, 3, 0] S80x1x64
  slices_S80x9x64_o0_4_0_S80x1x64 : S80x9x64.Slices ![0, 4, 0] S80x1x64
  slices_S80x9x64_o0_5_0_S80x1x64 : S80x9x64.Slices ![0, 5, 0] S80x1x64
  slices_S80x9x64_o0_6_0_S80x1x64 : S80x9x64.Slices ![0, 6, 0] S80x1x64
  slices_S80x9x64_o0_7_0_S80x1x64 : S80x9x64.Slices ![0, 7, 0] S80x1x64
  slices_S80x9x64_o0_8_0_S80x1x64 : S80x9x64.Slices ![0, 8, 0] S80x1x64
  inb_S80x24576_S80x4096_0_16384 : ∀ a, (![0, 16384] : Fin 2 → Nat) a + S80x4096.size a ≤ S80x24576.size a
  inb_S80x11x64_S80x11x64_0_0_0 : ∀ a, (![0, 0, 0] : Fin 3 → Nat) a + S80x11x64.size a ≤ S80x11x64.size a
  h_S80x11x64 : 0 < S80x11x64.numel
  slices_S80x11x64_o0_0_0_S80x1x64 : S80x11x64.Slices ![0, 0, 0] S80x1x64
  slices_S80x11x64_o0_1_0_S80x1x64 : S80x11x64.Slices ![0, 1, 0] S80x1x64
  slices_S80x11x64_o0_2_0_S80x1x64 : S80x11x64.Slices ![0, 2, 0] S80x1x64
  slices_S80x11x64_o0_3_0_S80x1x64 : S80x11x64.Slices ![0, 3, 0] S80x1x64
  slices_S80x11x64_o0_4_0_S80x1x64 : S80x11x64.Slices ![0, 4, 0] S80x1x64
  slices_S80x11x64_o0_5_0_S80x1x64 : S80x11x64.Slices ![0, 5, 0] S80x1x64
  slices_S80x11x64_o0_6_0_S80x1x64 : S80x11x64.Slices ![0, 6, 0] S80x1x64
  slices_S80x11x64_o0_7_0_S80x1x64 : S80x11x64.Slices ![0, 7, 0] S80x1x64
  slices_S80x11x64_o0_8_0_S80x1x64 : S80x11x64.Slices ![0, 8, 0] S80x1x64
  slices_S80x11x64_o0_9_0_S80x1x64 : S80x11x64.Slices ![0, 9, 0] S80x1x64
  slices_S80x11x64_o0_10_0_S80x1x64 : S80x11x64.Slices ![0, 10, 0] S80x1x64
  inb_S80x24576_S80x4096_0_20480 : ∀ a, (![0, 20480] : Fin 2 → Nat) a + S80x4096.size a ≤ S80x24576.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x1x64.size a ≤ S10000x1x64.size a
  hwx0_0 : ∀ i : grid0.Coords, EltTy.bits .f32 = 32 ∨ (Rect.block (s := S10000x1x64) S80x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x3x64.size a ≤ S10000x3x64.size a
  hwx0_1 : ∀ i : grid0.Coords, EltTy.bits .f32 = 32 ∨ (Rect.block (s := S10000x3x64) S80x3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x5x64.size a ≤ S10000x5x64.size a
  hwx0_2 : ∀ i : grid0.Coords, EltTy.bits .f32 = 32 ∨ (Rect.block (s := S10000x5x64) S80x5x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x7x64.size a ≤ S10000x7x64.size a
  hwx0_3 : ∀ i : grid0.Coords, EltTy.bits .f32 = 32 ∨ (Rect.block (s := S10000x7x64) S80x7x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x9x64.size a ≤ S10000x9x64.size a
  hwx0_4 : ∀ i : grid0.Coords, EltTy.bits .f32 = 32 ∨ (Rect.block (s := S10000x9x64) S80x9x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x11x64.size a ≤ S10000x11x64.size a
  hwx0_5 : ∀ i : grid0.Coords, EltTy.bits .f32 = 32 ∨ (Rect.block (s := S10000x11x64) S80x11x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S80x24576.size a ≤ S10000x24576.size a
  hwx0_6 : ∀ i : grid0.Coords, EltTy.bits .f32 = 32 ∨ (Rect.block (s := S10000x24576) S80x24576.size (cc0_transform_6 i) (hinb0_6 i)).WholeWords (EltTy.packing .f32)

variable [Facts₀]

abbrev win0_0 : Pipeline.Window sig grid0 :=
  Pipeline.Window.ofSpec (Memref.whole main_arg0) S80x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80x5x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S80x7x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S80x9x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S80x11x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S80x24576.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x1x64 : Shape := ⟨3, ![10000, 1, 64]⟩
abbrev S10000x3x64 : Shape := ⟨3, ![10000, 3, 64]⟩
abbrev S10000x5x64 : Shape := ⟨3, ![10000, 5, 64]⟩
abbrev S10000x7x64 : Shape := ⟨3, ![10000, 7, 64]⟩
abbrev S10000x9x64 : Shape := ⟨3, ![10000, 9, 64]⟩
abbrev S10000x11x64 : Shape := ⟨3, ![10000, 11, 64]⟩
abbrev S10000x64x64 : Shape := ⟨3, ![10000, 64, 64]⟩
abbrev S_ : Shape := ⟨0, ![]⟩
abbrev S10000x4096 : Shape := ⟨2, ![10000, 4096]⟩
abbrev S10000x24576 : Shape := ⟨2, ![10000, 24576]⟩

abbrev nBuf : Space → Nat
  | .hbm => 37
  | .vmem => 0
  | .smem => 0
  | _ => 0

abbrev bufTy : (tb : Table) → Fin (tcTables nBuf tb) → BufTy
  | .hbm, ⟨0, _⟩ => ⟨S10000x1x64, .f32⟩
  | .hbm, ⟨1, _⟩ => ⟨S10000x3x64, .f32⟩
  | .hbm, ⟨2, _⟩ => ⟨S10000x5x64, .f32⟩
  | .hbm, ⟨3, _⟩ => ⟨S10000x7x64, .f32⟩
  | .hbm, ⟨4, _⟩ => ⟨S10000x9x64, .f32⟩
  | .hbm, ⟨5, _⟩ => ⟨S10000x11x64, .f32⟩
  | .hbm, ⟨6, _⟩ => ⟨S10000x64x64, .f32⟩
  | .hbm, ⟨7, _⟩ => ⟨S_, .f32⟩
  | .hbm, ⟨8, _⟩ => ⟨S10000x64x64, .f32⟩
  | .hbm, ⟨9, _⟩ => ⟨S10000x64x64, .f32⟩
  | .hbm, ⟨10, _⟩ => ⟨S10000x4096, .f32⟩
  | .hbm, ⟨11, _⟩ => ⟨S10000x64x64, .f32⟩
  | .hbm, ⟨12, _⟩ => ⟨S_, .f32⟩
  | .hbm, ⟨13, _⟩ => ⟨S10000x64x64, .f32⟩
  | .hbm, ⟨14, _⟩ => ⟨S10000x64x64, .f32⟩
  | .hbm, ⟨15, _⟩ => ⟨S10000x4096, .f32⟩
  | .hbm, ⟨16, _⟩ => ⟨S10000x64x64, .f32⟩
  | .hbm, ⟨17, _⟩ => ⟨S_, .f32⟩
  | .hbm, ⟨18, _⟩ => ⟨S10000x64x64, .f32⟩
  | .hbm, ⟨19, _⟩ => ⟨S10000x64x64, .f32⟩
  | .hbm, ⟨20, _⟩ => ⟨S10000x4096, .f32⟩
  | .hbm, ⟨21, _⟩ => ⟨S10000x64x64, .f32⟩
  | .hbm, ⟨22, _⟩ => ⟨S_, .f32⟩
  | .hbm, ⟨23, _⟩ => ⟨S10000x64x64, .f32⟩
  | .hbm, ⟨24, _⟩ => ⟨S10000x64x64, .f32⟩
  | .hbm, ⟨25, _⟩ => ⟨S10000x4096, .f32⟩
  | .hbm, ⟨26, _⟩ => ⟨S10000x64x64, .f32⟩
  | .hbm, ⟨27, _⟩ => ⟨S_, .f32⟩
  | .hbm, ⟨28, _⟩ => ⟨S10000x64x64, .f32⟩
  | .hbm, ⟨29, _⟩ => ⟨S10000x64x64, .f32⟩
  | .hbm, ⟨30, _⟩ => ⟨S10000x4096, .f32⟩
  | .hbm, ⟨31, _⟩ => ⟨S10000x64x64, .f32⟩
  | .hbm, ⟨32, _⟩ => ⟨S_, .f32⟩
  | .hbm, ⟨33, _⟩ => ⟨S10000x64x64, .f32⟩
  | .hbm, ⟨34, _⟩ => ⟨S10000x64x64, .f32⟩
  | .hbm, ⟨35, _⟩ => ⟨S10000x4096, .f32⟩
  | .hbm, ⟨36, _⟩ => ⟨S10000x24576, .f32⟩
  | _, _ => ⟨S10000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S10000x64x64 : S_.BroadcastsInDim S10000x64x64 (![] : Fin 0 → Fin S10000x64x64.rank)
  shapeCasts_S10000x64x64_S10000x4096 : S10000x64x64.ShapeCasts S10000x4096
  concatenates_S10000x4096_S10000x4096_S10000x4096_S10000x4096_S10000x4096_S10000x4096_S10000x24576_d1 : Shape.Concatenates [S10000x4096, S10000x4096, S10000x4096, S10000x4096, S10000x4096, S10000x4096] S10000x24576 1
  dot_S10000x1x64_S10000x1x64_S10000x64x64_1_1_2_2_0_0_wf : DotDims.WF S10000x1x64 S10000x1x64 S10000x64x64 [1] [1] [2] [2] [0] [0]
  dot_S10000x3x64_S10000x3x64_S10000x64x64_1_1_2_2_0_0_wf : DotDims.WF S10000x3x64 S10000x3x64 S10000x64x64 [1] [1] [2] [2] [0] [0]
  dot_S10000x5x64_S10000x5x64_S10000x64x64_1_1_2_2_0_0_wf : DotDims.WF S10000x5x64 S10000x5x64 S10000x64x64 [1] [1] [2] [2] [0] [0]
  dot_S10000x7x64_S10000x7x64_S10000x64x64_1_1_2_2_0_0_wf : DotDims.WF S10000x7x64 S10000x7x64 S10000x64x64 [1] [1] [2] [2] [0] [0]
  dot_S10000x9x64_S10000x9x64_S10000x64x64_1_1_2_2_0_0_wf : DotDims.WF S10000x9x64 S10000x9x64 S10000x64x64 [1] [1] [2] [2] [0] [0]
  dot_S10000x11x64_S10000x11x64_S10000x64x64_1_1_2_2_0_0_wf : DotDims.WF S10000x11x64 S10000x11x64 S10000x64x64 [1] [1] [2] [2] [0] [0]

variable [Facts₀]

def dot_S10000x1x64_S10000x1x64_S10000x64x64_1_1_2_2_0_0 : DotDims S10000x1x64 S10000x1x64 S10000x64x64 where
  lhsContracting := [1]
  rhsContracting := [1]
  lhsNonContracting := [2]
  rhsNonContracting := [2]
  lhsBatch := [0]
  rhsBatch := [0]
  wf := dot_S10000x1x64_S10000x1x64_S10000x64x64_1_1_2_2_0_0_wf
def dot_S10000x3x64_S10000x3x64_S10000x64x64_1_1_2_2_0_0 : DotDims S10000x3x64 S10000x3x64 S10000x64x64 where
  lhsContracting := [1]
  rhsContracting := [1]
  lhsNonContracting := [2]
  rhsNonContracting := [2]
  lhsBatch := [0]
  rhsBatch := [0]
  wf := dot_S10000x3x64_S10000x3x64_S10000x64x64_1_1_2_2_0_0_wf
def dot_S10000x5x64_S10000x5x64_S10000x64x64_1_1_2_2_0_0 : DotDims S10000x5x64 S10000x5x64 S10000x64x64 where
  lhsContracting := [1]
  rhsContracting := [1]
  lhsNonContracting := [2]
  rhsNonContracting := [2]
  lhsBatch := [0]
  rhsBatch := [0]
  wf := dot_S10000x5x64_S10000x5x64_S10000x64x64_1_1_2_2_0_0_wf
def dot_S10000x7x64_S10000x7x64_S10000x64x64_1_1_2_2_0_0 : DotDims S10000x7x64 S10000x7x64 S10000x64x64 where
  lhsContracting := [1]
  rhsContracting := [1]
  lhsNonContracting := [2]
  rhsNonContracting := [2]
  lhsBatch := [0]
  rhsBatch := [0]
  wf := dot_S10000x7x64_S10000x7x64_S10000x64x64_1_1_2_2_0_0_wf
def dot_S10000x9x64_S10000x9x64_S10000x64x64_1_1_2_2_0_0 : DotDims S10000x9x64 S10000x9x64 S10000x64x64 where
  lhsContracting := [1]
  rhsContracting := [1]
  lhsNonContracting := [2]
  rhsNonContracting := [2]
  lhsBatch := [0]
  rhsBatch := [0]
  wf := dot_S10000x9x64_S10000x9x64_S10000x64x64_1_1_2_2_0_0_wf
def dot_S10000x11x64_S10000x11x64_S10000x64x64_1_1_2_2_0_0 : DotDims S10000x11x64 S10000x11x64 S10000x64x64 where
  lhsContracting := [1]
  rhsContracting := [1]
  lhsNonContracting := [2]
  rhsNonContracting := [2]
  lhsBatch := [0]
  rhsBatch := [0]
  wf := dot_S10000x11x64_S10000x11x64_S10000x64x64_1_1_2_2_0_0_wf

class Facts : Prop extends Facts₀ where

variable [Facts]
-- ==== Proof.LibUnitAxisLayout.lean ====
/-
  Layout operations around a unit axis, read at an index given by its coordinates, for any element type
  and any extents: a column [a, 1] broadcast along its rows to [a, b]; an [a, b] array cast to
  [a, b, 1] and an [a, c] array cast to [a, 1, c] (a trailing, a middle unit axis added); and those
  two shapes broadcast to [a, b, c]. Each only forgets or repeats a coordinate, so the result at
  (p, r, q) is the operand at the coordinates that remain, 0 on the unit axis. Together they read a
  batched outer product  x[:, :, None] * y[:, None, :]  entry by entry.
-/
import Idealize.ShloMosaic.Lib.ValueIdx
import Idealize.ShloMosaic.Lib.Pipeline.Value
import Idealize.ShloMosaic.Lib.ValueLayout

noncomputable section

namespace Cert.Lib.UnitAxisLayout

open Idealize.ShloMosaic Idealize.ShloMosaic.ValueIdx

/-! ## The layout operations of the body, each read at an index given by coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, b, 1]` array broadcast to `[a, b, c]` reads, at `(p, r, q)`, the operand at `(p, r, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (r : Fin b) (q : Fin c) :
    broadcastTo ⟨3, ![a, b, c]⟩ v h (ix3 p r q) = v (ix3 p r (0 : Fin 1)) := by
  refine broadcastTo_apply v h (ix3 p r q) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, 1, c]` array broadcast to `[a, b, c]` reads, at `(p, r, q)`, the operand at `(p, 0, q)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (r : Fin b) (q : Fin c) :
    broadcastTo ⟨3, ![a, b, c]⟩ v h (ix3 p r q) = v (ix3 p (0 : Fin 1) q) := by
  refine broadcastTo_apply v h (ix3 p r q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

end Cert.Lib.UnitAxisLayout

end
-- ==== Proof.Spectrum.lean ====
/-
  The power spectrum of six coefficient arrays, entry by entry.

  For l = 0, …, 5 the array x_l has shape [N, 2l+1, 64]: N samples, 2l+1 orders m, 64 features.
  Its spectrum is the Gram matrix over the features, summed over m and scaled by a weight c_l
  (the 32-bit float nearest to (2l+1)^(-1/2), kept as its word):

      ps_l[n, f, g] = c_l · Σ_m x_l[n, m, f] · x_l[n, m, g].

  The result array has shape [N, 6·4096]: column j belongs to l = j / 4096, and inside that
  stretch the pair (f, g) is laid out row-major, f = (j % 4096) / 64, g = j % 64.
  Everything is over the extended reals; no finiteness is needed, because the two programs
  compared against this function differ from it only in how the same sums are bracketed.
-/
import Idealize.ShloMosaic.PureOps.Ideal
import Idealize.ShloMosaic.Lib.ValueIdx

noncomputable section

namespace Cert.PowerSpectrum

open Idealize.ShloMosaic Idealize.ShloMosaic.ValueIdx

/-- One entry of the scaled Gram matrix of sample `r`: `c · Σ_m x[r, m, f] · x[r, m, g]`. -/
def gram {N M : ℕ} (c : EReal) (x : (⟨3, ![N, M, 64]⟩ : Shape).Idx → EReal) (r : Fin N) (f g : Fin 64) : EReal :=
  c * ∑ k : Fin M, x (ix3 r k f) * x (ix3 r k g)

theorem div64_lt (q : Fin 4096) : q.val / 64 < 64 := by have := q.isLt; omega
theorem mod64_lt (q : Fin 4096) : q.val % 64 < 64 := Nat.mod_lt _ (by decide)

/-- The row feature `f` and the column feature `g` of position `q` in a flattened 64 × 64 matrix. -/
def rowOf (q : Fin 4096) : Fin 64 := ⟨q.val / 64, div64_lt q⟩
def colOf (q : Fin 4096) : Fin 64 := ⟨q.val % 64, mod64_lt q⟩

/-- The weights `c_l`, as the float words both programs carry. -/
def weight : Fin 6 → EReal
  | 0 => Ideal.ofBits .f32 0x3F800000#32
  | 1 => Ideal.ofBits .f32 0x3F13CD3A#32
  | 2 => Ideal.ofBits .f32 0x3EE4F92E#32
  | 3 => Ideal.ofBits .f32 0x3EC1848F#32
  | 4 => Ideal.ofBits .f32 0x3EAAAAAB#32
  | 5 => Ideal.ofBits .f32 0x3E9A5FB2#32

section
variable {N : ℕ}
  (x0 : (⟨3, ![N, 1, 64]⟩ : Shape).Idx → EReal) (x1 : (⟨3, ![N, 3, 64]⟩ : Shape).Idx → EReal)
  (x2 : (⟨3, ![N, 5, 64]⟩ : Shape).Idx → EReal) (x3 : (⟨3, ![N, 7, 64]⟩ : Shape).Idx → EReal)
  (x4 : (⟨3, ![N, 9, 64]⟩ : Shape).Idx → EReal) (x5 : (⟨3, ![N, 11, 64]⟩ : Shape).Idx → EReal)

/-- Stretch `l` of the result: the flattened scaled Gram matrix of `x_l`. -/
def piece : Fin 6 → Fin N → Fin 4096 → EReal
  | 0, r, q => gram (weight 0) x0 r (rowOf q) (colOf q)
  | 1, r, q => gram (weight 1) x1 r (rowOf q) (colOf q)
  | 2, r, q => gram (weight 2) x2 r (rowOf q) (colOf q)
  | 3, r, q => gram (weight 3) x3 r (rowOf q) (colOf q)
  | 4, r, q => gram (weight 4) x4 r (rowOf q) (colOf q)
  | 5, r, q => gram (weight 5) x5 r (rowOf q) (colOf q)

theorem stretch_lt (j : Fin 24576) : j.val / 4096 < 6 := by have := j.isLt; omega
theorem within_lt (j : Fin 24576) : j.val % 4096 < 4096 := Nat.mod_lt _ (by decide)

/-- The result at sample `r`, column `j`: stretch `j / 4096` at position `j % 4096`. -/
def spectrum (r : Fin N) (j : Fin 24576) : EReal :=
  piece x0 x1 x2 x3 x4 x5 ⟨j.val / 4096, stretch_lt j⟩ r ⟨j.val % 4096, within_lt j⟩

/-- The result as an array of shape [N, 24576]. -/
def spectrumArr : (⟨2, ![N, 24576]⟩ : Shape).Idx → EReal :=
  fun J => spectrum x0 x1 x2 x3 x4 x5 ⟨(J 0).val, (J 0).isLt⟩ ⟨(J 1).val, (J 1).isLt⟩

theorem spectrumArr_ix2 (r : Fin N) (j : Fin 24576) :
    spectrumArr x0 x1 x2 x3 x4 x5 (ix2 r j) = spectrum x0 x1 x2 x3 x4 x5 r j := rfl

/-- The array at an index whose two coordinates are the numbers of sample `r` and column `j`. -/
theorem spectrumArr_of_coords (J : (⟨2, ![N, 24576]⟩ : Shape).Idx) (r : Fin N) (j : Fin 24576)
    (h0 : (J 0).val = r.val) (h1 : (J 1).val = j.val) :
    spectrumArr x0 x1 x2 x3 x4 x5 J = spectrum x0 x1 x2 x3 x4 x5 r j := by
  have e0 : (⟨(J 0).val, (J 0).isLt⟩ : Fin N) = r := Fin.ext h0
  have e1 : (⟨(J 1).val, (J 1).isLt⟩ : Fin 24576) = j := Fin.ext h1
  unfold spectrumArr
  rw [e0, e1]

/-- Column `4096 · l + q` lies in stretch `l` at position `q` (the sample given by its number). -/
theorem spectrum_at (r r' : Fin N) (hr : r'.val = r.val) (l : Fin 6) (q : Fin 4096) (j : Fin 24576)
    (hj : j.val = 4096 * l.val + q.val) :
    spectrum x0 x1 x2 x3 x4 x5 r' j = piece x0 x1 x2 x3 x4 x5 l r q := by
  obtain rfl : r' = r := Fin.ext hr
  unfold spectrum
  have hq := q.isLt
  have e1 : (⟨j.val / 4096, stretch_lt j⟩ : Fin 6) = l := Fin.ext (by show j.val / 4096 = l.val; omega)
  have e2 : (⟨j.val % 4096, within_lt j⟩ : Fin 4096) = q := Fin.ext (by show j.val % 4096 = q.val; omega)
  rw [e1, e2]

end

/-- LOCALITY: row `r` of the spectrum reads only sample `r` of each array. So a window of samples
    (sample `r'` of the `b`s is sample `r` of the `a`s) has, in its row `r'`, row `r` of the whole spectrum. -/
theorem spectrum_congr {N N' : ℕ}
    (a0 : (⟨3, ![N, 1, 64]⟩ : Shape).Idx → EReal) (a1 : (⟨3, ![N, 3, 64]⟩ : Shape).Idx → EReal)
    (a2 : (⟨3, ![N, 5, 64]⟩ : Shape).Idx → EReal) (a3 : (⟨3, ![N, 7, 64]⟩ : Shape).Idx → EReal)
    (a4 : (⟨3, ![N, 9, 64]⟩ : Shape).Idx → EReal) (a5 : (⟨3, ![N, 11, 64]⟩ : Shape).Idx → EReal)
    (b0 : (⟨3, ![N', 1, 64]⟩ : Shape).Idx → EReal) (b1 : (⟨3, ![N', 3, 64]⟩ : Shape).Idx → EReal)
    (b2 : (⟨3, ![N', 5, 64]⟩ : Shape).Idx → EReal) (b3 : (⟨3, ![N', 7, 64]⟩ : Shape).Idx → EReal)
    (b4 : (⟨3, ![N', 9, 64]⟩ : Shape).Idx → EReal) (b5 : (⟨3, ![N', 11, 64]⟩ : Shape).Idx → EReal)
    (r : Fin N) (r' : Fin N')
    (h0 : ∀ (k : Fin 1) (f : Fin 64), b0 (ix3 r' k f) = a0 (ix3 r k f))
    (h1 : ∀ (k : Fin 3) (f : Fin 64), b1 (ix3 r' k f) = a1 (ix3 r k f))
    (h2 : ∀ (k : Fin 5) (f : Fin 64), b2 (ix3 r' k f) = a2 (ix3 r k f))
    (h3 : ∀ (k : Fin 7) (f : Fin 64), b3 (ix3 r' k f) = a3 (ix3 r k f))
    (h4 : ∀ (k : Fin 9) (f : Fin 64), b4 (ix3 r' k f) = a4 (ix3 r k f))
    (h5 : ∀ (k : Fin 11) (f : Fin 64), b5 (ix3 r' k f) = a5 (ix3 r k f))
    (j : Fin 24576) :
    spectrum b0 b1 b2 b3 b4 b5 r' j = spectrum a0 a1 a2 a3 a4 a5 r j := by
  unfold spectrum
  generalize (⟨j.val / 4096, stretch_lt j⟩ : Fin 6) = l
  generalize (⟨j.val % 4096, within_lt j⟩ : Fin 4096) = q
  match l with
  | ⟨0, _⟩ => show gram _ b0 r' _ _ = gram _ a0 r _ _; unfold gram; simp only [h0]
  | ⟨1, _⟩ => show gram _ b1 r' _ _ = gram _ a1 r _ _; unfold gram; simp only [h1]
  | ⟨2, _⟩ => show gram _ b2 r' _ _ = gram _ a2 r _ _; unfold gram; simp only [h2]
  | ⟨3, _⟩ => show gram _ b3 r' _ _ = gram _ a3 r _ _; unfold gram; simp only [h3]
  | ⟨4, _⟩ => show gram _ b4 r' _ _ = gram _ a4 r _ _; unfold gram; simp only [h4]
  | ⟨5, _⟩ => show gram _ b5 r' _ _ = gram _ a5 r _ _; unfold gram; simp only [h5]

end Cert.PowerSpectrum

end
-- ==== Proof.BlockGram.lean ====
/-
  The body's arithmetic on one block of 80 samples, read entry by entry.

  For a block v of shape [80, M, 64] the body takes row m (the slice [:, m, :] as an [80, 64]
  array), forms the batched outer product  row[:, :, None] * row[:, None, :]  of shape
  [80, 64, 64], and adds it to an accumulator that starts at zero; after the M rows it
  multiplies by the weight and flattens [80, 64, 64] to [80, 4096].  Entry (p, q) of the
  result is therefore  c · (0 + v[p,0,f]·v[p,0,g] + … + v[p,M-1,f]·v[p,M-1,g])  with
  f = q / 64 and g = q % 64: the scaled Gram entry of sample p.  The accumulation is stated
  once for every M, by recursion on the number of rows already added, and each printed
  payload is that recursion unfolded.
-/
import proofs.«164864_j6279242187188_2_alg».proof.Proof.Gen.KernelIdeal.Skeleton
import proofs.«164864_j6279242187188_2_alg».proof.Proof.LibUnitAxisLayout
import proofs.«164864_j6279242187188_2_alg».proof.Proof.Spectrum
import Idealize.ShloMosaic.PureOps.Ideal.Laws
import Idealize.ShloMosaic.Lib.ValueIdx
import Idealize.ShloMosaic.Lib.Pipeline.Value

noncomputable section

namespace Cert.PowerSpectrum.Block

open Idealize.ShloMosaic Idealize.ShloMosaic.ValueIdx Cert.KernelIdeal Cert.KernelIdeal.Gen
open Cert.Lib.UnitAxisLayout

variable {F : FTy → Type} [FloatOps F]

/-- A block of 80 samples with `M` orders. -/
abbrev Blk (M : ℕ) : Shape := ⟨3, ![80, M, 64]⟩

/-- Row `k` of such a block is a slice of it. -/
theorem slices_row (M k : ℕ) (hk : k < M) : (Blk M).Slices ![0, k, 0] S80x1x64 :=
  ⟨rfl, fun a => by
    match a with
    | ⟨0, _⟩ => exact Nat.le_refl 80
    | ⟨1, _⟩ => show k + 1 ≤ M; omega
    | ⟨2, _⟩ => exact Nat.le_refl 64⟩

/-- Row `k` of a block as an [80, 64] array. -/
def row (M k : ℕ) (hk : k < M) (v : FVec F (Blk M) .f32) : FVec F S80x64 .f32 :=
  shapeCast S80x64 (extractStridedSlice S80x1x64 ![0, k, 0] v (slices_row M k hk)) shapeCasts_S80x1x64_S80x64

/-- An [80, 1, 64] array with its unit axis dropped reads, at (p, f), the array at (p, 0, f). -/
theorem dropUnit_apply {α : Type} (x : S80x1x64.Idx → α) (p : Fin 80) (f : Fin 64) :
    shapeCast S80x64 x shapeCasts_S80x1x64_S80x64 (ix2 p f) = x (ix3 p (0 : Fin 1) f) :=
  shapeCast_apply x shapeCasts_S80x1x64_S80x64 (ix2 p f) (ix3 p (0 : Fin 1) f) (by
    rw [Shape.rowMajor_val_three, Shape.rowMajor_val_two]
    show (p.val * 1 + 0) * 64 + f.val = p.val * 64 + f.val
    omega)

/-- Row `k` at (p, f) is the block at (p, k, f). -/
theorem row_apply (M k : ℕ) (hk : k < M) (v : FVec F (Blk M) .f32) (p : Fin 80) (f : Fin 64) :
    row M k hk v (ix2 p f) = v (ix3 p (⟨k, hk⟩ : Fin M) f) := by
  unfold row
  rw [dropUnit_apply]
  refine extractStridedSlice_apply _ v _ (ix3 p (0 : Fin 1) f) (ix3 p (⟨k, hk⟩ : Fin M) f) fun a => ?_
  match a with
  | ⟨0, _⟩ => show p.val = 0 + p.val; omega
  | ⟨1, _⟩ => show k = k + 0; omega
  | ⟨2, _⟩ => show f.val = 0 + f.val; omega

/-- The batched outer product of an [80, 64] array with itself. -/
def outer (x : FVec F S80x64 .f32) : FVec F S80x64x64 .f32 :=
  mulf (broadcastTo S80x64x64 (shapeCast S80x64x1 x shapeCasts_S80x64_S80x64x1) broadcasts_S80x64x1_S80x64x64)
    (broadcastTo S80x64x64 (shapeCast S80x1x64 x shapeCasts_S80x64_S80x1x64) broadcasts_S80x1x64_S80x64x64)

/-- Its entry (p, f, g) is x[p, f] · x[p, g]. -/
theorem outer_apply (x : FVec Ideal S80x64 .f32) (p : Fin 80) (f g : Fin 64) :
    outer x (ix3 p f g) = x (ix2 p f) * x (ix2 p g) := by
  unfold outer
  rw [mulf_apply, broadcastTo_ab1_abc_apply, broadcastTo_a1c_abc_apply, shapeCast_ab_ab1_apply, shapeCast_ac_a1c_apply]

/-- The accumulator after the first `n` rows of a block have been added to zero. -/
def accTo (M : ℕ) (v : FVec F (Blk M) .f32) : (n : ℕ) → n ≤ M → FVec F S80x64x64 .f32
  | 0, _ => broadcast S80x64x64 (Scalar.ofBits .f32 0x00000000#32)
  | n + 1, h => addf (accTo M v n (Nat.le_of_succ_le h)) (outer (row M n h v))

/-- Its entry (p, f, g) is the sum of the first `n` rows' products. -/
theorem accTo_apply (M : ℕ) (v : FVec Ideal (Blk M) .f32) (p : Fin 80) (f g : Fin 64) :
    ∀ (n : ℕ) (h : n ≤ M), accTo M v n h (ix3 p f g)
      = ∑ k : Fin n, v (ix3 p (⟨k.val, Nat.lt_of_lt_of_le k.isLt h⟩ : Fin M) f) * v (ix3 p (⟨k.val, Nat.lt_of_lt_of_le k.isLt h⟩ : Fin M) g)
  | 0, _ => by
    show Ideal.ofBits .f32 0x00000000#32 = _
    rw [Ideal.ofBits_zero_f32]; rfl
  | n + 1, h => by
    rw [Fin.sum_univ_castSucc]
    show accTo M v n _ (ix3 p f g) + outer (row M n h v) (ix3 p f g) = _
    rw [accTo_apply M v p f g n _, outer_apply, row_apply, row_apply]
    rfl

/-- Scaling by the weight word `w` and flattening [80, 64, 64] to [80, 4096]. -/
def scaled (w : BitVec 32) (a : FVec F S80x64x64 .f32) : FVec F S80x4096 .f32 :=
  shapeCast S80x4096 (mulf (broadcast S80x64x64 (Scalar.ofBits .f32 w)) a) shapeCasts_S80x64x64_S80x4096

/-- Its entry (p, q) is the weight times the accumulator at (p, q / 64, q % 64). -/
theorem scaled_apply (w : BitVec 32) (a : FVec Ideal S80x64x64 .f32) (p : Fin 80) (q : Fin 4096) :
    scaled w a (ix2 p q) = Ideal.ofBits .f32 w * a (ix3 p (rowOf q) (colOf q)) := by
  unfold scaled
  rw [shapeCast_apply _ shapeCasts_S80x64x64_S80x4096 (ix2 p q) (ix3 p (rowOf q) (colOf q)) (by
    rw [Shape.rowMajor_val_three, Shape.rowMajor_val_two]
    show (p.val * 64 + q.val / 64) * 64 + q.val % 64 = p.val * 4096 + q.val
    omega)]
  rfl

/-- The whole accumulation of a block, scaled: entry (p, q) is the scaled Gram entry of sample `p`. -/
theorem scaled_accTo_apply (w : BitVec 32) (M : ℕ) (v : FVec Ideal (Blk M) .f32) (p : Fin 80) (q : Fin 4096) :
    scaled w (accTo M v M (Nat.le_refl M)) (ix2 p q) = gram (Ideal.ofBits .f32 w) v p (rowOf q) (colOf q) := by
  rw [scaled_apply, accTo_apply]
  rfl

end Cert.PowerSpectrum.Block

end
-- ==== Proof.Payloads.lean ====
/-
  Each of the six values the body stores is the scaled accumulation of its block.

  The body is printed as one long chain of operations; the value stored for l is, as written,
  the weight times ((…((0 + row_0 ⊗ row_0) + row_1 ⊗ row_1) + …) + row_{2l} ⊗ row_{2l}),
  flattened.  That is the recursion `accTo` unfolded 2l+1 times, so the two are the same term.
  For l = 0 the block has a single row and the body drops its unit axis without slicing.
  Read at an entry, each stored value is the scaled Gram entry of its block.
-/
import proofs.«164864_j6279242187188_2_alg».proof.Proof.BlockGram

noncomputable section

namespace Cert.PowerSpectrum.Block

open Idealize.ShloMosaic Idealize.ShloMosaic.ValueIdx Cert.KernelIdeal Cert.KernelIdeal.Gen
open Cert.Lib.UnitAxisLayout

variable {F : FTy → Type} [FloatOps F]

/-- The accumulator for a block with one row: zero plus that row's outer product. -/
def acc1 (v : FVec F S80x1x64 .f32) : FVec F S80x64x64 .f32 :=
  addf (broadcast S80x64x64 (Scalar.ofBits .f32 0x00000000#32)) (outer (shapeCast S80x64 v shapeCasts_S80x1x64_S80x64))

theorem stored0_eq (v : Vec F S80x1x64 .f32) : k0_pay2 v = scaled 0x3F800000#32 (acc1 v) := rfl

theorem stored1_eq (v : Vec F S80x3x64 .f32) :
    k0_pay3 v = scaled 0x3F13CD3A#32 (accTo 3 v 3 (Nat.le_refl 3)) := rfl

theorem stored2_eq (v : Vec F S80x5x64 .f32) :
    k0_pay4 v = scaled 0x3EE4F92E#32 (accTo 5 v 5 (Nat.le_refl 5)) := rfl

theorem stored3_eq (v : Vec F S80x7x64 .f32) :
    k0_pay6 v (k0_pay5 (F := F)) = scaled 0x3EC1848F#32 (accTo 7 v 7 (Nat.le_refl 7)) := rfl

theorem stored4_eq (v : Vec F S80x9x64 .f32) :
    k0_pay9 v (k0_pay7 v) (k0_pay8 v) = scaled 0x3EAAAAAB#32 (accTo 9 v 9 (Nat.le_refl 9)) := rfl

theorem stored5_eq (v : Vec F S80x11x64 .f32) :
    k0_pay1 (k0_pay11 v (k0_pay10 v)) (k0_pay13 v) (k0_pay14 v)
      = scaled 0x3E9A5FB2#32 (accTo 11 v 11 (Nat.le_refl 11)) := rfl

/-! ## At the extended reals -/

theorem acc1_apply (v : FVec Ideal S80x1x64 .f32) (p : Fin 80) (f g : Fin 64) :
    acc1 v (ix3 p f g) = ∑ k : Fin 1, v (ix3 p k f) * v (ix3 p k g) := by
  show Ideal.ofBits .f32 0x00000000#32 + outer _ (ix3 p f g) = _
  rw [Ideal.ofBits_zero_f32, zero_add, outer_apply, dropUnit_apply, dropUnit_apply, Fin.sum_univ_one]

theorem stored0_apply (v : FVec Ideal S80x1x64 .f32) (p : Fin 80) (q : Fin 4096) :
    k0_pay2 (F := Ideal) v (ix2 p q) = gram (weight 0) v p (rowOf q) (colOf q) := by
  rw [stored0_eq, scaled_apply, acc1_apply]; rfl

theorem stored1_apply (v : FVec Ideal S80x3x64 .f32) (p : Fin 80) (q : Fin 4096) :
    k0_pay3 (F := Ideal) v (ix2 p q) = gram (weight 1) v p (rowOf q) (colOf q) := by
  rw [stored1_eq, scaled_accTo_apply]; rfl

theorem stored2_apply (v : FVec Ideal S80x5x64 .f32) (p : Fin 80) (q : Fin 4096) :
    k0_pay4 (F := Ideal) v (ix2 p q) = gram (weight 2) v p (rowOf q) (colOf q) := by
  rw [stored2_eq, scaled_accTo_apply]; rfl

theorem stored3_apply (v : FVec Ideal S80x7x64 .f32) (p : Fin 80) (q : Fin 4096) :
    k0_pay6 v (k0_pay5 (F := Ideal)) (ix2 p q) = gram (weight 3) v p (rowOf q) (colOf q) := by
  rw [stored3_eq, scaled_accTo_apply]; rfl

theorem stored4_apply (v : FVec Ideal S80x9x64 .f32) (p : Fin 80) (q : Fin 4096) :
    k0_pay9 (F := Ideal) v (k0_pay7 v) (k0_pay8 v) (ix2 p q) = gram (weight 4) v p (rowOf q) (colOf q) := by
  rw [stored4_eq, scaled_accTo_apply]; rfl

theorem stored5_apply (v : FVec Ideal S80x11x64 .f32) (p : Fin 80) (q : Fin 4096) :
    k0_pay1 (F := Ideal) (k0_pay11 v (k0_pay10 v)) (k0_pay13 v) (k0_pay14 v) (ix2 p q)
      = gram (weight 5) v p (rowOf q) (colOf q) := by
  rw [stored5_eq, scaled_accTo_apply]; rfl

end Cert.PowerSpectrum.Block

end
-- ==== Proof.BlockSpectrum.lean ====
/-
  What the body leaves in the output block: the power spectrum of the six input blocks.

  The body writes the output block [80, 24576] by six stores, the one for l into the columns
  4096·l … 4096·l + 4095.  The six column ranges tile the block, so its entry (p, j) is the
  value stored for l = j / 4096 at (p, j % 4096), which is the scaled Gram entry of sample p
  of block l: the block is the spectrum of the input blocks (with 80 samples).
-/
import proofs.«164864_j6279242187188_2_alg».proof.Proof.Gen.KernelIdeal.Frame
import proofs.«164864_j6279242187188_2_alg».proof.Proof.Payloads

noncomputable section

namespace Cert.PowerSpectrum.Block

open Idealize.ShloMosaic Idealize.ShloMosaic.ValueIdx Cert.KernelIdeal Cert.KernelIdeal.Gen

theorem whole_offsets3 : (![0, 0, 0] : Fin 3 → Nat) = fun _ => 0 := funext fun a => by fin_cases a <;> rfl

section
variable (x0 : Vec Ideal S80x1x64 .f32) (x1 : Vec Ideal S80x3x64 .f32) (x2 : Vec Ideal S80x5x64 .f32)
  (x3 : Vec Ideal S80x7x64 .f32) (x4 : Vec Ideal S80x9x64 .f32) (x5 : Vec Ideal S80x11x64 .f32)

/-- A value `w` of shape [80, 4096] that is piece `l` of the blocks' spectrum, stored at the columns from
    `4096 · l`, agrees there with the spectrum as an array. -/
theorem stored_at (l : Fin 6) (off : Fin 2 → ℕ) (h0 : off 0 = 0) (h1 : off 1 = 4096 * l.val)
    (inb : ∀ a, off a + S80x4096.size a ≤ S80x24576.size a) (w : S80x4096.Idx → EReal)
    (hw : ∀ (p : Fin 80) (q : Fin 4096), w (ix2 p q) = piece x0 x1 x2 x3 x4 x5 l p q)
    (x : (Rect.unit (s := S80x24576) off S80x4096.size inb).shape.Idx) :
    w x = spectrumArr x0 x1 x2 x3 x4 x5 ((Rect.unit (s := S80x24576) off S80x4096.size inb).emb x) := by
  obtain ⟨p, q, rfl⟩ : ∃ (p : Fin 80) (q : Fin 4096), x = ix2 p q := ⟨x 0, x 1, eq_ix2 x⟩
  rw [hw]
  exact (spectrum_at x0 x1 x2 x3 x4 x5 p _ (by show off 0 + 1 * p.val = p.val; omega) l q _
    (by show off 1 + 1 * q.val = 4096 * l.val + q.val; omega)).symm

/-- THE OUTPUT BLOCK after the body is the spectrum of the input blocks. -/
theorem out_eq : out0_6 x0 x1 x2 x3 x4 x5 = spectrumArr (N := 80) x0 x1 x2 x3 x4 x5 := by
  funext y
  unfold out0_6
  simp only [View.ld_unit_zero (S := S80x1x64) whole_offsets3, View.ld_unit_zero (S := S80x3x64) whole_offsets3,
    View.ld_unit_zero (S := S80x5x64) whole_offsets3, View.ld_unit_zero (S := S80x7x64) whole_offsets3,
    View.ld_unit_zero (S := S80x9x64) whole_offsets3, View.ld_unit_zero (S := S80x11x64) whole_offsets3]
  refine View.canon_apply_of_pieces (Val := Elt Ideal) (S := S80x24576) (e := .f32)
    (spectrumArr (N := 80) x0 x1 x2 x3 x4 x5) _ ?_ y (cover0_6 _ _ _ _ _ _ y)
  intro pc hpc
  simp only [List.mem_cons, List.not_mem_nil, or_false] at hpc
  rcases hpc with rfl | rfl | rfl | rfl | rfl | rfl
  · exact stored_at x0 x1 x2 x3 x4 x5 5 ![0, 20480] rfl rfl inb_S80x24576_S80x4096_0_20480 _ (stored5_apply x5)
  · exact stored_at x0 x1 x2 x3 x4 x5 4 ![0, 16384] rfl rfl inb_S80x24576_S80x4096_0_16384 _ (stored4_apply x4)
  · exact stored_at x0 x1 x2 x3 x4 x5 3 ![0, 12288] rfl rfl inb_S80x24576_S80x4096_0_12288 _ (stored3_apply x3)
  · exact stored_at x0 x1 x2 x3 x4 x5 2 ![0, 8192] rfl rfl inb_S80x24576_S80x4096_0_8192 _ (stored2_apply x2)
  · exact stored_at x0 x1 x2 x3 x4 x5 1 ![0, 4096] rfl rfl inb_S80x24576_S80x4096_0_4096 _ (stored1_apply x1)
  · exact stored_at x0 x1 x2 x3 x4 x5 0 ![0, 0] rfl rfl inb_S80x24576_S80x4096_0_0 _ (stored0_apply x0)

end

end Cert.PowerSpectrum.Block

end
-- ==== Proof.KernelSpectrum.lean ====
/-
  The kernel's result array is the power spectrum of its argument arrays.

  The grid has 125 points; point t handles the samples 80·t … 80·t + 79: every input window's
  block at t is those samples of its array (all orders, all features), and the output window's
  block at t is those rows of the result (all 24576 columns).  What point t writes back is the
  spectrum of its input blocks, and since row r of the spectrum reads only sample r of each
  array, that is rows 80·t … 80·t + 79 of the spectrum of the whole arrays.  The 125 row bands
  cover the result array, so after the run it holds the spectrum.
-/
import proofs.«164864_j6279242187188_2_alg».proof.Proof.Gen.KernelIdeal.Value
import proofs.«164864_j6279242187188_2_alg».proof.Proof.BlockSpectrum

noncomputable section

namespace Cert.PowerSpectrum.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The spectrum of the argument arrays as launched, on core `c`. -/
def result (c : Dev nD) : S10000x24576.Idx → EReal :=
  spectrumArr (N := 10000) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- Every window's block index at point `t` is `t` on the sample axis and 0 on the others (decided over the
    125 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 2) = t.val ∧ win0_6.index t (1 : Fin 2) = 0) :=
  (by decide +kernel : ∀ t : Fin grid0.N, _)

theorem point_lt (t : Fin cfg0.N) : t.val < 125 := lt_of_lt_of_eq t.isLt N_0

/-- Sample `p` of point `t`'s blocks is sample `80·t + p` of the arrays. -/
def sample (t : Fin cfg0.N) (p : Fin 80) : Fin 10000 :=
  ⟨80 * t.val + p.val, by have := point_lt t; have := p.isLt; omega⟩

/-! ## The input blocks at a point, read at an entry -/

theorem block0_apply (c : Dev nD) (t : Fin cfg0.N) (p : Fin 80) (k : Fin 1) (f : Fin 64) :
    (iblk m c 0 t : Vec Ideal S80x1x64 .f32) (ix3 p k f)
      = (m ((c : Thread nD τ).loc main_arg0) : S10000x1x64.Idx → EReal) (ix3 (sample t p) k f) := by
  show V m c main_arg0 (((cfg0.win 0).blk t).view.emb (ix3 p k f)) = _
  obtain ⟨⟨e0, e1, e2⟩, -⟩ := idx_facts t
  refine congrArg (V m c main_arg0) (funext fun a => Fin.ext ?_)
  match a with
  | ⟨0, _⟩ => show win0_0.index t (0 : Fin 3) * 80 + 1 * p.val = 80 * t.val + p.val; omega
  | ⟨1, _⟩ => show win0_0.index t (1 : Fin 3) * 1 + 1 * k.val = k.val; omega
  | ⟨2, _⟩ => show win0_0.index t (2 : Fin 3) * 64 + 1 * f.val = f.val; omega

theorem block1_apply (c : Dev nD) (t : Fin cfg0.N) (p : Fin 80) (k : Fin 3) (f : Fin 64) :
    (iblk m c 1 t : Vec Ideal S80x3x64 .f32) (ix3 p k f)
      = (m ((c : Thread nD τ).loc main_arg1) : S10000x3x64.Idx → EReal) (ix3 (sample t p) k f) := by
  show V m c main_arg1 (((cfg0.win 1).blk t).view.emb (ix3 p k f)) = _
  obtain ⟨-, ⟨e0, e1, e2⟩, -⟩ := idx_facts t
  refine congrArg (V m c main_arg1) (funext fun a => Fin.ext ?_)
  match a with
  | ⟨0, _⟩ => show win0_1.index t (0 : Fin 3) * 80 + 1 * p.val = 80 * t.val + p.val; omega
  | ⟨1, _⟩ => show win0_1.index t (1 : Fin 3) * 3 + 1 * k.val = k.val; omega
  | ⟨2, _⟩ => show win0_1.index t (2 : Fin 3) * 64 + 1 * f.val = f.val; omega

theorem block2_apply (c : Dev nD) (t : Fin cfg0.N) (p : Fin 80) (k : Fin 5) (f : Fin 64) :
    (iblk m c 2 t : Vec Ideal S80x5x64 .f32) (ix3 p k f)
      = (m ((c : Thread nD τ).loc main_arg2) : S10000x5x64.Idx → EReal) (ix3 (sample t p) k f) := by
  show V m c main_arg2 (((cfg0.win 2).blk t).view.emb (ix3 p k f)) = _
  obtain ⟨-, -, ⟨e0, e1, e2⟩, -⟩ := idx_facts t
  refine congrArg (V m c main_arg2) (funext fun a => Fin.ext ?_)
  match a with
  | ⟨0, _⟩ => show win0_2.index t (0 : Fin 3) * 80 + 1 * p.val = 80 * t.val + p.val; omega
  | ⟨1, _⟩ => show win0_2.index t (1 : Fin 3) * 5 + 1 * k.val = k.val; omega
  | ⟨2, _⟩ => show win0_2.index t (2 : Fin 3) * 64 + 1 * f.val = f.val; omega

theorem block3_apply (c : Dev nD) (t : Fin cfg0.N) (p : Fin 80) (k : Fin 7) (f : Fin 64) :
    (iblk m c 3 t : Vec Ideal S80x7x64 .f32) (ix3 p k f)
      = (m ((c : Thread nD τ).loc main_arg3) : S10000x7x64.Idx → EReal) (ix3 (sample t p) k f) := by
  show V m c main_arg3 (((cfg0.win 3).blk t).view.emb (ix3 p k f)) = _
  obtain ⟨-, -, -, ⟨e0, e1, e2⟩, -⟩ := idx_facts t
  refine congrArg (V m c main_arg3) (funext fun a => Fin.ext ?_)
  match a with
  | ⟨0, _⟩ => show win0_3.index t (0 : Fin 3) * 80 + 1 * p.val = 80 * t.val + p.val; omega
  | ⟨1, _⟩ => show win0_3.index t (1 : Fin 3) * 7 + 1 * k.val = k.val; omega
  | ⟨2, _⟩ => show win0_3.index t (2 : Fin 3) * 64 + 1 * f.val = f.val; omega

theorem block4_apply (c : Dev nD) (t : Fin cfg0.N) (p : Fin 80) (k : Fin 9) (f : Fin 64) :
    (iblk m c 4 t : Vec Ideal S80x9x64 .f32) (ix3 p k f)
      = (m ((c : Thread nD τ).loc main_arg4) : S10000x9x64.Idx → EReal) (ix3 (sample t p) k f) := by
  show V m c main_arg4 (((cfg0.win 4).blk t).view.emb (ix3 p k f)) = _
  obtain ⟨-, -, -, -, ⟨e0, e1, e2⟩, -⟩ := idx_facts t
  refine congrArg (V m c main_arg4) (funext fun a => Fin.ext ?_)
  match a with
  | ⟨0, _⟩ => show win0_4.index t (0 : Fin 3) * 80 + 1 * p.val = 80 * t.val + p.val; omega
  | ⟨1, _⟩ => show win0_4.index t (1 : Fin 3) * 9 + 1 * k.val = k.val; omega
  | ⟨2, _⟩ => show win0_4.index t (2 : Fin 3) * 64 + 1 * f.val = f.val; omega

theorem block5_apply (c : Dev nD) (t : Fin cfg0.N) (p : Fin 80) (k : Fin 11) (f : Fin 64) :
    (iblk m c 5 t : Vec Ideal S80x11x64 .f32) (ix3 p k f)
      = (m ((c : Thread nD τ).loc main_arg5) : S10000x11x64.Idx → EReal) (ix3 (sample t p) k f) := by
  show V m c main_arg5 (((cfg0.win 5).blk t).view.emb (ix3 p k f)) = _
  obtain ⟨-, -, -, -, -, ⟨e0, e1, e2⟩, -⟩ := idx_facts t
  refine congrArg (V m c main_arg5) (funext fun a => Fin.ext ?_)
  match a with
  | ⟨0, _⟩ => show win0_5.index t (0 : Fin 3) * 80 + 1 * p.val = 80 * t.val + p.val; omega
  | ⟨1, _⟩ => show win0_5.index t (1 : Fin 3) * 11 + 1 * k.val = k.val; omega
  | ⟨2, _⟩ => show win0_5.index t (2 : Fin 3) * 64 + 1 * f.val = f.val; omega

/-! ## What a point writes back -/

/-- WHAT POINT `t` WRITES BACK is its row band of the spectrum of the whole arrays. -/
theorem flushed_eq (c : Dev nD) (t : Fin cfg0.N) :
    (dats m 0 c).flushed 6 t = ((cfg0.win 6).blk t).view.read (Elt Ideal) (result m c) := by
  rw [Cert.KernelIdeal.Value.flushed6]
  funext y
  show out0_6 (iblk m c 0 t) (iblk m c 1 t) (iblk m c 2 t) (iblk m c 3 t) (iblk m c 4 t) (iblk m c 5 t) y
    = result m c (((cfg0.win 6).blk t).view.emb y)
  refine (congrFun (Block.out_eq (iblk m c 0 t) (iblk m c 1 t) (iblk m c 2 t) (iblk m c 3 t) (iblk m c 4 t) (iblk m c 5 t)) y).trans ?_
  obtain ⟨p, q, rfl⟩ : ∃ (p : Fin 80) (q : Fin 24576), y = ix2 p q := ⟨y 0, y 1, eq_ix2 y⟩
  obtain ⟨-, -, -, -, -, -, e0, e1⟩ := idx_facts t
  refine (spectrum_congr _ _ _ _ _ _ _ _ _ _ _ _ (sample t p) p (block0_apply m c t p) (block1_apply m c t p)
    (block2_apply m c t p) (block3_apply m c t p) (block4_apply m c t p) (block5_apply m c t p) q).trans ?_
  refine (spectrumArr_of_coords _ _ _ _ _ _ _ (sample t p) q ?_ ?_).symm
  · show win0_6.index t (0 : Fin 2) * 80 + 1 * p.val = 80 * t.val + p.val; omega
  · show win0_6.index t (1 : Fin 2) * 24576 + 1 * q.val = q.val; omega

/-! ## The row bands cover the array -/

/-- An index of the result array is in point `t`'s block iff each coordinate is in the block's range. -/
theorem mem_blk (t : Fin cfg0.N) (i : S10000x24576.Idx) :
    i ∈ ((cfg0.win 6).blk t).view.set ↔ ∀ a : Fin 2, win0_6.index t a * S80x24576.size a ≤ (i a).val
      ∧ (i a).val < win0_6.index t a * S80x24576.size a + S80x24576.size a := by
  show i ∈ ((View.whole main_v0).slice (win0_6.rect t)).set ↔ _
  rw [View.set_slice_whole, Rect.mem_set_unit]
  exact Iff.rfl

/-- Row `r` lies in the band of point `r / 80`. -/
theorem cover (i : S10000x24576.Idx) :
    ∃ t : Fin cfg0.N, (cfg0.win 6).flush t = true ∧ i ∈ ((cfg0.win 6).blk t).view.set := by
  have hi0 : (i 0).val < 10000 := (i 0).isLt
  have hi1 : (i 1).val < 24576 := (i 1).isLt
  have hN : cfg0.N = 125 := N_0
  refine ⟨⟨(i 0).val / 80, by rw [hN]; omega⟩, flush0_6 _, ?_⟩
  rw [mem_blk]
  obtain ⟨-, -, -, -, -, -, e0, e1⟩ := idx_facts ⟨(i 0).val / 80, by rw [hN]; omega⟩
  intro a
  match a with
  | ⟨0, _⟩ =>
    show win0_6.index ⟨(i 0).val / 80, _⟩ (0 : Fin 2) * 80 ≤ (i 0).val
      ∧ (i 0).val < win0_6.index ⟨(i 0).val / 80, _⟩ (0 : Fin 2) * 80 + 80
    rw [e0]; show (i 0).val / 80 * 80 ≤ (i 0).val ∧ (i 0).val < (i 0).val / 80 * 80 + 80; omega
  | ⟨1, _⟩ =>
    show win0_6.index ⟨(i 0).val / 80, _⟩ (1 : Fin 2) * 24576 ≤ (i 1).val
      ∧ (i 1).val < win0_6.index ⟨(i 0).val / 80, _⟩ (1 : Fin 2) * 24576 + 24576
    rw [e1]; omega

/-! ## The array after the run, and the run -/

/-- THE RESULT ARRAY after the run is the spectrum of the argument arrays. -/
theorem final (c : Dev nD) : (dats m 0 c).arrAt 6 cfg0.N = result m c :=
  (dats m 0 c).arrAt_eq_of_cover 6 (result m c) (fun t _ => flushed_eq m c t) cover

/-- The kernel's run: it ends with the result array at the spectrum and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.PowerSpectrum.Kernel

end
-- ==== Proof.RefSpectrum.lean ====
/-
  The reference computes the power spectrum.

  For each l the reference contracts x_l with itself over the order axis (a batched matrix
  product with the sample as batch axis), multiplies by the broadcast weight, flattens
  [10000, 64, 64] to [10000, 4096], and finally joins the six results along the columns.
  Read at (r, j): the join picks stretch j / 4096 at column j % 4096; the flattening sends
  column q to the pair (q / 64, q % 64); the contraction is the sum over the orders.
-/
import proofs.«164864_j6279242187188_2_alg».proof.Proof.Gen.ReferenceIdeal.Read
import proofs.«164864_j6279242187188_2_alg».proof.Proof.Spectrum
import Idealize.ShloMosaic.Lib.Pipeline.Value

noncomputable section

namespace Cert.PowerSpectrum.Ref

open Idealize.ShloMosaic Idealize.ShloMosaic.ValueIdx Cert.ReferenceIdeal Cert.ReferenceIdeal.Gen Cert.ReferenceIdeal.Read

/-- Where the flattening and the contraction read their operands: sample `r`, order `k`, and the
    row (left operand) or column (right operand) feature of column `q`. -/
theorem left_idx {M : ℕ} (r : Fin 10000) (q : Fin 4096) (k : Fin M) (i : (⟨3, ![10000, 64, 64]⟩ : Shape).Idx)
    (h0 : (i 0).val = (r.val * 4096 + q.val) / 4096) (h1 : (i 1).val = (r.val * 4096 + q.val) / 64 % 64)
    (j : (⟨3, ![10000, M, 64]⟩ : Shape).Idx) (e0 : (j 0).val = (i 0).val) (e1 : (j 1).val = k.val) (e2 : (j 2).val = (i 1).val) :
    j = ix3 r k (rowOf q) := by
  have := r.isLt; have := q.isLt
  funext a; apply Fin.ext
  match a with
  | ⟨0, _⟩ => show (j 0).val = r.val; omega
  | ⟨1, _⟩ => exact e1
  | ⟨2, _⟩ => show (j 2).val = q.val / 64; omega

theorem right_idx {M : ℕ} (r : Fin 10000) (q : Fin 4096) (k : Fin M) (i : (⟨3, ![10000, 64, 64]⟩ : Shape).Idx)
    (h0 : (i 0).val = (r.val * 4096 + q.val) / 4096) (h2 : (i 2).val = (r.val * 4096 + q.val) % 64)
    (j : (⟨3, ![10000, M, 64]⟩ : Shape).Idx) (e0 : (j 0).val = (i 0).val) (e1 : (j 1).val = k.val) (e2 : (j 2).val = (i 2).val) :
    j = ix3 r k (colOf q) := by
  have := r.isLt; have := q.isLt
  funext a; apply Fin.ext
  match a with
  | ⟨0, _⟩ => show (j 0).val = r.val; omega
  | ⟨1, _⟩ => exact e1
  | ⟨2, _⟩ => show (j 2).val = q.val % 64; omega

/-- The weight times the sum over the orders, its operands read where the two lemmas above say, is the
    scaled Gram entry. -/
theorem scaled_sum_eq {M : ℕ} (w : BitVec 32) (x : (⟨3, ![10000, M, 64]⟩ : Shape).Idx → EReal) (r : Fin 10000) (q : Fin 4096)
    (L R : Fin M → (⟨3, ![10000, M, 64]⟩ : Shape).Idx)
    (hL : ∀ k, L k = ix3 r k (rowOf q)) (hR : ∀ k, R k = ix3 r k (colOf q)) :
    FloatOps.mulf (F := Ideal) (FloatOps.ofBits .f32 w) (∑ k : Fin M, x (L k) * x (R k))
      = gram (Ideal.ofBits .f32 w) x r (rowOf q) (colOf q) := by
  simp only [hL, hR]
  rfl

/-! The six stretches: flatten, multiply by the broadcast weight, contract. -/

theorem stretch0 (x0 : (⟨S10000x1x64, .f32⟩ : BufTy).Contents (Elt Ideal)) (r : Fin 10000) (q : Fin 4096) :
    val_main_v3 (F := Ideal) x0 (ix2 r q) = gram (weight 0) x0 r (rowOf q) (colOf q) := by
  rw [val_main_v3_apply, val_main_v2_apply, val_main_v1_apply, val_main_cst_apply, val_main_v0_apply]
  exact scaled_sum_eq _ x0 r q _ _ (fun k => left_idx r q k (idx_main_v3 (ix2 r q)) rfl rfl _ rfl rfl rfl)
    (fun k => right_idx r q k (idx_main_v3 (ix2 r q)) rfl rfl _ rfl rfl rfl)

theorem stretch1 (x1 : (⟨S10000x3x64, .f32⟩ : BufTy).Contents (Elt Ideal)) (r : Fin 10000) (q : Fin 4096) :
    val_main_v7 (F := Ideal) x1 (ix2 r q) = gram (weight 1) x1 r (rowOf q) (colOf q) := by
  rw [val_main_v7_apply, val_main_v6_apply, val_main_v5_apply, val_main_cst_0_apply, val_main_v4_apply]
  exact scaled_sum_eq _ x1 r q _ _ (fun k => left_idx r q k (idx_main_v7 (ix2 r q)) rfl rfl _ rfl rfl rfl)
    (fun k => right_idx r q k (idx_main_v7 (ix2 r q)) rfl rfl _ rfl rfl rfl)

theorem stretch2 (x2 : (⟨S10000x5x64, .f32⟩ : BufTy).Contents (Elt Ideal)) (r : Fin 10000) (q : Fin 4096) :
    val_main_v11 (F := Ideal) x2 (ix2 r q) = gram (weight 2) x2 r (rowOf q) (colOf q) := by
  rw [val_main_v11_apply, val_main_v10_apply, val_main_v9_apply, val_main_cst_1_apply, val_main_v8_apply]
  exact scaled_sum_eq _ x2 r q _ _ (fun k => left_idx r q k (idx_main_v11 (ix2 r q)) rfl rfl _ rfl rfl rfl)
    (fun k => right_idx r q k (idx_main_v11 (ix2 r q)) rfl rfl _ rfl rfl rfl)

theorem stretch3 (x3 : (⟨S10000x7x64, .f32⟩ : BufTy).Contents (Elt Ideal)) (r : Fin 10000) (q : Fin 4096) :
    val_main_v15 (F := Ideal) x3 (ix2 r q) = gram (weight 3) x3 r (rowOf q) (colOf q) := by
  rw [val_main_v15_apply, val_main_v14_apply, val_main_v13_apply, val_main_cst_2_apply, val_main_v12_apply]
  exact scaled_sum_eq _ x3 r q _ _ (fun k => left_idx r q k (idx_main_v15 (ix2 r q)) rfl rfl _ rfl rfl rfl)
    (fun k => right_idx r q k (idx_main_v15 (ix2 r q)) rfl rfl _ rfl rfl rfl)

theorem stretch4 (x4 : (⟨S10000x9x64, .f32⟩ : BufTy).Contents (Elt Ideal)) (r : Fin 10000) (q : Fin 4096) :
    val_main_v19 (F := Ideal) x4 (ix2 r q) = gram (weight 4) x4 r (rowOf q) (colOf q) := by
  rw [val_main_v19_apply, val_main_v18_apply, val_main_v17_apply, val_main_cst_3_apply, val_main_v16_apply]
  exact scaled_sum_eq _ x4 r q _ _ (fun k => left_idx r q k (idx_main_v19 (ix2 r q)) rfl rfl _ rfl rfl rfl)
    (fun k => right_idx r q k (idx_main_v19 (ix2 r q)) rfl rfl _ rfl rfl rfl)

theorem stretch5 (x5 : (⟨S10000x11x64, .f32⟩ : BufTy).Contents (Elt Ideal)) (r : Fin 10000) (q : Fin 4096) :
    val_main_v23 (F := Ideal) x5 (ix2 r q) = gram (weight 5) x5 r (rowOf q) (colOf q) := by
  rw [val_main_v23_apply, val_main_v22_apply, val_main_v21_apply, val_main_cst_4_apply, val_main_v20_apply]
  exact scaled_sum_eq _ x5 r q _ _ (fun k => left_idx r q k (idx_main_v23 (ix2 r q)) rfl rfl _ rfl rfl rfl)
    (fun k => right_idx r q k (idx_main_v23 (ix2 r q)) rfl rfl _ rfl rfl rfl)

/-- The six flattened stretches, as a family indexed by l. -/
def stretches (x0 : (⟨S10000x1x64, .f32⟩ : BufTy).Contents (Elt Ideal)) (x1 : (⟨S10000x3x64, .f32⟩ : BufTy).Contents (Elt Ideal))
    (x2 : (⟨S10000x5x64, .f32⟩ : BufTy).Contents (Elt Ideal)) (x3 : (⟨S10000x7x64, .f32⟩ : BufTy).Contents (Elt Ideal))
    (x4 : (⟨S10000x9x64, .f32⟩ : BufTy).Contents (Elt Ideal)) (x5 : (⟨S10000x11x64, .f32⟩ : BufTy).Contents (Elt Ideal)) :
    Fin 6 → (S10000x4096.Idx → EReal)
  | 0 => val_main_v3 (F := Ideal) x0
  | 1 => val_main_v7 (F := Ideal) x1
  | 2 => val_main_v11 (F := Ideal) x2
  | 3 => val_main_v15 (F := Ideal) x3
  | 4 => val_main_v19 (F := Ideal) x4
  | 5 => val_main_v23 (F := Ideal) x5

/-- Stretch l at (r, q) is piece l of the spectrum. -/
theorem stretches_apply (x0 : (⟨S10000x1x64, .f32⟩ : BufTy).Contents (Elt Ideal)) (x1 : (⟨S10000x3x64, .f32⟩ : BufTy).Contents (Elt Ideal))
    (x2 : (⟨S10000x5x64, .f32⟩ : BufTy).Contents (Elt Ideal)) (x3 : (⟨S10000x7x64, .f32⟩ : BufTy).Contents (Elt Ideal))
    (x4 : (⟨S10000x9x64, .f32⟩ : BufTy).Contents (Elt Ideal)) (x5 : (⟨S10000x11x64, .f32⟩ : BufTy).Contents (Elt Ideal))
    (l : Fin 6) (r : Fin 10000) (q : Fin 4096) :
    stretches x0 x1 x2 x3 x4 x5 l (ix2 r q) = piece x0 x1 x2 x3 x4 x5 l r q := by
  match l with
  | ⟨0, _⟩ => exact stretch0 x0 r q
  | ⟨1, _⟩ => exact stretch1 x1 r q
  | ⟨2, _⟩ => exact stretch2 x2 r q
  | ⟨3, _⟩ => exact stretch3 x3 r q
  | ⟨4, _⟩ => exact stretch4 x4 r q
  | ⟨5, _⟩ => exact stretch5 x5 r q

/-- THE REFERENCE'S RESULT is the power spectrum of its arguments. -/
theorem result_eq (x0 : (⟨S10000x1x64, .f32⟩ : BufTy).Contents (Elt Ideal)) (x1 : (⟨S10000x3x64, .f32⟩ : BufTy).Contents (Elt Ideal))
    (x2 : (⟨S10000x5x64, .f32⟩ : BufTy).Contents (Elt Ideal)) (x3 : (⟨S10000x7x64, .f32⟩ : BufTy).Contents (Elt Ideal))
    (x4 : (⟨S10000x9x64, .f32⟩ : BufTy).Contents (Elt Ideal)) (x5 : (⟨S10000x11x64, .f32⟩ : BufTy).Contents (Elt Ideal)) :
    val_main_v24 (F := Ideal) x0 x1 x2 x3 x4 x5 = spectrumArr x0 x1 x2 x3 x4 x5 := by
  funext J
  obtain ⟨r, j, rfl⟩ : ∃ (r : Fin 10000) (j : Fin 24576), J = ix2 r j := ⟨J 0, J 1, eq_ix2 J⟩
  rw [spectrumArr_ix2]
  unfold spectrum
  rw [← stretches_apply]
  unfold val_main_v24
  exact concatenate_ofFn_apply (t := S10000x24576) (s₁ := S10000x4096) (1 : Fin 2) (stretches x0 x1 x2 x3 x4 x5)
    concatenates_S10000x4096_S10000x4096_S10000x4096_S10000x4096_S10000x4096_S10000x4096_S10000x24576_d1 rfl 4096 rfl
    (ix2 r j) ⟨j.val / 4096, stretch_lt j⟩ rfl (ix2 r ⟨j.val % 4096, within_lt j⟩) rfl
    (fun b hb => by
      match b with
      | ⟨0, _⟩ => rfl
      | ⟨1, _⟩ => exact absurd rfl hb)

end Cert.PowerSpectrum.Ref

end
-- ==== Proof.lean ====
/-
  The power spectrum kernel against its reference: the certificate's five claims.

  Both programs take six coefficient arrays x_l of shape [10000, 2l+1, 64] (l = 0, …, 5) and return
  the array of shape [10000, 6·4096] whose row r, in the columns of stretch l, is the flattened
  matrix  c_l · Σ_m x_l[r, m, f] · x_l[r, m, g]  (Proof/Spectrum.lean).  The kernel works on bands of
  80 samples: for each l it adds the outer products of the 2l+1 rows to a zero accumulator one by
  one, scales, flattens and stores into its column stretch of the band (Proof/BlockGram.lean,
  Proof/Payloads.lean, Proof/BlockSpectrum.lean), and the 125 bands cover the result
  (Proof/KernelSpectrum.lean).  The reference contracts each x_l with itself over the orders in one
  batched product, scales, flattens and joins the six stretches (Proof/RefSpectrum.lean).  The two
  carry the same six weight words, and at the extended reals the kernel's running sum from zero is
  the reference's sum: only the bracketing of a finite sum differs, so no finiteness of the inputs
  is used.  The idealization rewrote no operation, so there is nothing to preserve; the three
  frames are the generated ones.
-/
import proofs.«164864_j6279242187188_2_alg».proof.Defs
import proofs.«164864_j6279242187188_2_alg».proof.Proof.Gen.Kernel
import proofs.«164864_j6279242187188_2_alg».proof.Proof.Gen.Kernel.Skeleton
import proofs.«164864_j6279242187188_2_alg».proof.Proof.Gen.Kernel.Launch
import proofs.«164864_j6279242187188_2_alg».proof.Proof.Gen.Kernel.Points
import proofs.«164864_j6279242187188_2_alg».proof.Proof.Gen.Kernel.Frame
import proofs.«164864_j6279242187188_2_alg».proof.Proof.Gen.KernelIdeal
import proofs.«164864_j6279242187188_2_alg».proof.Proof.Gen.KernelIdeal.Skeleton
import proofs.«164864_j6279242187188_2_alg».proof.Proof.Gen.KernelIdeal.Launch
import proofs.«164864_j6279242187188_2_alg».proof.Proof.Gen.KernelIdeal.Points
import proofs.«164864_j6279242187188_2_alg».proof.Proof.Gen.KernelIdeal.Frame
import proofs.«164864_j6279242187188_2_alg».proof.Proof.Gen.ReferenceIdeal
import proofs.«164864_j6279242187188_2_alg».proof.Proof.Gen.KernelIdeal.Value
import proofs.«164864_j6279242187188_2_alg».proof.Proof.Gen.ReferenceIdeal.Run
import proofs.«164864_j6279242187188_2_alg».proof.Proof.Gen.ReferenceIdeal.Read
import proofs.«164864_j6279242187188_2_alg».proof.Proof.Gen.Pre_finite_inputs
import proofs.«164864_j6279242187188_2_alg».proof.Proof.KernelSpectrum
import proofs.«164864_j6279242187188_2_alg».proof.Proof.RefSpectrum
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its reading at the extended reals. -/
theorem frame_ideal : Cert.frame_KernelIdeal := fun m ρ _ => Cert.KernelIdeal.Gen.frame m ρ

/-- The reference runs and leaves its arguments alone: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the six arrays both programs end with the spectrum of those arrays. -/
theorem algebraic : Cert.algebraic_KernelIdeal_ReferenceIdeal := by
  intro m ρ m' ρ' _ hagree
  refine ⟨fun c => Cert.PowerSpectrum.Kernel.result m c, Cert.PowerSpectrum.Kernel.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v24_eq (F := Ideal) _ _ _ _ _ _).trans
    (Cert.PowerSpectrum.Ref.result_eq _ _ _ _ _ _)).trans ?_
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
